-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S3 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S1600000 32) (main_arg3 : FVec F S128x128 .f32) (main_arg4 : FVec F S128 .f32) (main_arg5 : FVec F S128x3 .f32) (main_arg6 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg5
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S1700000x128 : Shape := ⟨2, ![1700000, 128]⟩
abbrev S1x128 : Shape := ⟨2, ![1, 128]⟩
abbrev S100000x3 : Shape := ⟨2, ![100000, 3]⟩
abbrev S5000x128 : Shape := ⟨2, ![5000, 128]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 68
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .bf16⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .bf16⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x3, .f32⟩
  | .hbm, ⟨48, _⟩ => ⟨S100000x3, .f32⟩
  | .hbm, ⟨49, _⟩ => ⟨S100000x3, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x3, .f32⟩
  | .hbm, ⟨59, _⟩ => ⟨S_, .f32⟩
  | .hbm, ⟨60, _⟩ => ⟨S100000x3, .f32⟩
  | .hbm, ⟨61, _⟩ => ⟨S1700000x1, .i32⟩
  | .hbm, ⟨62, _⟩ => ⟨S100000x3, .f32⟩
  | .hbm, ⟨63, _⟩ => ⟨S100000x3, .f32⟩
  | .hbm, ⟨64, _⟩ => ⟨S100000x3, .f32⟩
  | .hbm, ⟨65, _⟩ => ⟨S1x3, .f32⟩
  | .hbm, ⟨66, _⟩ => ⟨S100000x3, .f32⟩
  | .hbm, ⟨67, _⟩ => ⟨S100000x3, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .bf16⟩
  | .local _ .vmem, ⟨4, _⟩ => ⟨S4000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x3, .f32⟩
  | .local _ .vmem, ⟨9, _⟩ => ⟨S5000x3, .f32⟩
  | .local _ .vmem, ⟨10, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S100000x1_S100000x3_0_1 : S100000x1.BroadcastsInDim S100000x3 (![0, 1] : Fin 2 → Fin S100000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x3_S5000x3_1_0_0_1_n_n_wf : DotDims.WF S5000x128 S128x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x3.size a ≤ S128x3.size a
  hwx1_2 : ∀ i : grid1.Coords, EltTy.bits .f32 = 32 ∨ (Rect.block (s := S128x3) S128x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x3.size a ≤ S100000x3.size a
  hwx1_3 : ∀ i : grid1.Coords, EltTy.bits .f32 = 32 ∨ (Rect.block (s := S100000x3) S5000x3.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x3, .f32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x3, .f32⟩
  | .hbm, ⟨105, _⟩ => ⟨S1700000x1, .f32⟩
  | .hbm, ⟨106, _⟩ => ⟨S1700000x3, .f32⟩
  | .hbm, ⟨107, _⟩ => ⟨S1700000x3, .f32⟩
  | .hbm, ⟨108, _⟩ => ⟨S_, .f32⟩
  | .hbm, ⟨109, _⟩ => ⟨S100000x3, .f32⟩
  | .hbm, ⟨110, _⟩ => ⟨S1700000x1, .i32⟩
  | .hbm, ⟨111, _⟩ => ⟨S100000x3, .f32⟩
  | .hbm, ⟨112, _⟩ => ⟨S1x3, .f32⟩
  | .hbm, ⟨113, _⟩ => ⟨S100000x3, .f32⟩
  | .hbm, ⟨114, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_15 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.KernelRun.lean ====
/-
  The idealized kernel's run, with its result array named.

  The program is five segments in a row: host operations, the region of the first matrix product, host operations,
  the region of the second product, host operations. What the TensorCore's buffers hold at each boundary is a fold
  through the program from the launch memory: a stretch of host operations rewrites the buffers its operations
  write, a region leaves in each of its output arrays what its grid points wrote back, and every other buffer keeps
  its contents. At the return every unscoped buffer holds what the last fold says; read at the result's buffer this
  names the result array, and read at an argument's buffer it walks back to the launch memory, because nothing
  writes an argument.
-/
import proofs.«126724_j82497731822011_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and the argument arrays end as launched. -/
theorem run : θ_run defs (onTc (τ := τ) (main (F := F))) ⟨m, fun _ => 0, ρ⟩ (fun r => ∀ c : Dev nD,
      r.2.mem ((c.tc : Thread nD τ).loc main_v51) = W5 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v51 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.ValueRun

end
-- ==== Proof.Stages1.lean ====
/-
  The idealized kernel's host operations before its first region, and the buffers no later segment writes.

  Before the first region the program builds, from the edge list alone, the source and destination vectors (the
  given edges followed by one self loop per node) and the column of node factors (max degree 1)^(-1/2). The
  reference builds the same three arrays by the same operations, so each is the reference's own intermediate array
  of the edge list. No region and no later host operation writes these buffers or the arguments, so every later
  boundary finds them as the first stretch left them.
-/
import proofs.«126724_j82497731822011_2_alg».proof.Proof.Gen.KernelIdeal.Frame
import proofs.«126724_j82497731822011_2_alg».proof.Proof.Gen.ReferenceIdeal.Read
import Idealize.ShloMosaic.Lib.StableHlo.Run
import Idealize.ShloMosaic.Lib.ValueIdx
import Idealize.ShloMosaic.PureOps.Ideal.Laws

set_option maxRecDepth 16384

noncomputable section

namespace Cert.KernelIdeal.Stages

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

/-- A change of float format is the identity on the extended reals, for whole arrays. -/
theorem truncf_id {s : Shape} {φ ψ : FTy} (a : FVec Ideal s φ) (h : ψ.bits < φ.bits) :
    (truncf ψ a h : s.Idx → EReal) = a := rfl
theorem extf_id {s : Shape} {φ ψ : FTy} (a : FVec Ideal s φ) (h : φ.bits < ψ.bits) :
    (extf ψ a h : s.Idx → EReal) = a := rfl

/-! ## After the first stretch -/

/-- The source vector is the reference's. -/
theorem W1_v3 : (W1 m ρ c (Proc.devRef .tc main_v3) : S1700000.Idx → BitVec 32)
    = Cert.ReferenceIdeal.Read.val_main_v3 (F := Ideal) (m ((c : Thread nD τ).loc main_arg1)) := by
  dsimp only [W1, hostOps0]
  after_results
  rfl

/-- The destination vector is the reference's. -/
theorem W1_v6 : (W1 m ρ c (Proc.devRef .tc main_v6) : S1700000.Idx → BitVec 32)
    = Cert.ReferenceIdeal.Read.val_main_v6 (F := Ideal) (m ((c : Thread nD τ).loc main_arg1)) := by
  dsimp only [W1, hostOps0]
  after_results
  rfl

/-- The column of node factors is the reference's vector of factors, as a column. -/
theorem W1_v14 : (W1 m ρ c (Proc.devRef .tc main_v14) : S100000x1.Idx → EReal)
    = broadcastInDim S100000x1 ![0] Facts₀.bcast_S100000_S100000x1_0
        (Cert.ReferenceIdeal.Read.val_main_v14 (F := Ideal) (m ((c : Thread nD τ).loc main_arg1))) := by
  dsimp only [W1, hostOps0]
  after_results
  rfl

/-- The first stretch writes no argument. -/
theorem W1_arg0 : (W1 m ρ c (Proc.devRef .tc main_arg0) : S100000x128.Idx → EReal) = m ((c : Thread nD τ).loc main_arg0) := by
  dsimp only [W1, hostOps0]
  after_results
  try rfl
theorem W1_arg3 : (W1 m ρ c (Proc.devRef .tc main_arg3) : S128x128.Idx → EReal) = m ((c : Thread nD τ).loc main_arg3) := by
  dsimp only [W1, hostOps0]
  after_results
  try rfl
theorem W1_arg4 : (W1 m ρ c (Proc.devRef .tc main_arg4) : S128.Idx → EReal) = m ((c : Thread nD τ).loc main_arg4) := by
  dsimp only [W1, hostOps0]
  after_results
  try rfl
theorem W1_arg5 : (W1 m ρ c (Proc.devRef .tc main_arg5) : S128x3.Idx → EReal) = m ((c : Thread nD τ).loc main_arg5) := by
  dsimp only [W1, hostOps0]
  after_results
  try rfl
theorem W1_arg6 : (W1 m ρ c (Proc.devRef .tc main_arg6) : S3.Idx → EReal) = m ((c : Thread nD τ).loc main_arg6) := by
  dsimp only [W1, hostOps0]
  after_results
  try rfl

/-! ## Carried to the second stretch: the first region writes only its output -/

theorem W2_v3 : (W2 m ρ c (Proc.devRef .tc main_v3) : S1700000.Idx → BitVec 32) = W1 m ρ c (Proc.devRef .tc main_v3) :=
  W2_of_ne m ρ c main_v3 (by decide)
theorem W2_v6 : (W2 m ρ c (Proc.devRef .tc main_v6) : S1700000.Idx → BitVec 32) = W1 m ρ c (Proc.devRef .tc main_v6) :=
  W2_of_ne m ρ c main_v6 (by decide)
theorem W2_v14 : (W2 m ρ c (Proc.devRef .tc main_v14) : S100000x1.Idx → EReal) = W1 m ρ c (Proc.devRef .tc main_v14) :=
  W2_of_ne m ρ c main_v14 (by decide)
theorem W2_arg4 : (W2 m ρ c (Proc.devRef .tc main_arg4) : S128.Idx → EReal) = W1 m ρ c (Proc.devRef .tc main_arg4) :=
  W2_of_ne m ρ c main_arg4 (by decide)

/-- The second stretch writes no argument: the third weight matrix reaches the second region as launched. -/
theorem W3_arg5_keeps : (W3 m ρ c (Proc.devRef .tc main_arg5) : S128x3.Idx → EReal) = W2 m ρ c (Proc.devRef .tc main_arg5) := by
  dsimp only [W3, hostOps1]
  after_results
theorem W3_arg5 : (W3 m ρ c (Proc.devRef .tc main_arg5) : S128x3.Idx → EReal) = m ((c : Thread nD τ).loc main_arg5) :=
  (W3_arg5_keeps m ρ c).trans ((W2_of_ne m ρ c main_arg5 (by decide)).trans (W1_arg5 m ρ c))

/-! ## Carried to the last stretch: neither the second stretch nor the second region writes them -/

theorem W3_v3 : (W3 m ρ c (Proc.devRef .tc main_v3) : S1700000.Idx → BitVec 32) = W2 m ρ c (Proc.devRef .tc main_v3) := by
  dsimp only [W3, hostOps1]
  after_results
theorem W4_v3 : (W4 m ρ c (Proc.devRef .tc main_v3) : S1700000.Idx → BitVec 32) = W1 m ρ c (Proc.devRef .tc main_v3) :=
  (W4_of_ne m ρ c main_v3 (by decide)).trans ((W3_v3 m ρ c).trans (W2_of_ne m ρ c main_v3 (by decide)))

theorem W3_v6 : (W3 m ρ c (Proc.devRef .tc main_v6) : S1700000.Idx → BitVec 32) = W2 m ρ c (Proc.devRef .tc main_v6) := by
  dsimp only [W3, hostOps1]
  after_results
theorem W4_v6 : (W4 m ρ c (Proc.devRef .tc main_v6) : S1700000.Idx → BitVec 32) = W1 m ρ c (Proc.devRef .tc main_v6) :=
  (W4_of_ne m ρ c main_v6 (by decide)).trans ((W3_v6 m ρ c).trans (W2_of_ne m ρ c main_v6 (by decide)))

theorem W3_v14 : (W3 m ρ c (Proc.devRef .tc main_v14) : S100000x1.Idx → EReal) = W2 m ρ c (Proc.devRef .tc main_v14) := by
  dsimp only [W3, hostOps1]
  after_results
theorem W4_v14 : (W4 m ρ c (Proc.devRef .tc main_v14) : S100000x1.Idx → EReal) = W1 m ρ c (Proc.devRef .tc main_v14) :=
  (W4_of_ne m ρ c main_v14 (by decide)).trans ((W3_v14 m ρ c).trans (W2_of_ne m ρ c main_v14 (by decide)))

theorem W3_arg6 : (W3 m ρ c (Proc.devRef .tc main_arg6) : S3.Idx → EReal) = W2 m ρ c (Proc.devRef .tc main_arg6) := by
  dsimp only [W3, hostOps1]
  after_results
theorem W4_arg6 : (W4 m ρ c (Proc.devRef .tc main_arg6) : S3.Idx → EReal) = W1 m ρ c (Proc.devRef .tc main_arg6) :=
  (W4_of_ne m ρ c main_arg6 (by decide)).trans ((W3_arg6 m ρ c).trans (W2_of_ne m ρ c main_arg6 (by decide)))

end Cert.KernelIdeal.Stages

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.RegionProducts.lean ====
/-
  What each of the two layers' output arrays holds after its grid has run, entry by entry.

  The kernel is a two-layer graph convolution. Its first grid multiplies the node features by the first weight
  matrix, a block of 4000 rows at a time: the output array ends as the plain matrix product x · W₁. Its second grid
  adds a bias row to the aggregated features, clamps below at zero and multiplies by the second weight matrix, a
  block of 5000 rows at a time: the output array ends as relu(a + b) · W₂. On the extended reals the changes of
  number format are the identity, so both are textbook sums over the 128 contracted columns.

  Each statement is for arbitrary contents of the buffers when the grid is entered.
-/
import proofs.«126724_j82497731822011_2_alg».proof.Proof.Gen.KernelIdeal.Frame
import proofs.«126724_j82497731822011_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The first layer: a row block of x · W₁ -/

/-- The first product's left index keeps the output row … -/
theorem layer1_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- … and takes the contracted position as its column; -/
theorem layer1_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right index takes the contracted position as its row … -/
theorem layer1_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and keeps the output column. -/
theorem layer1_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The first layer's body on one block, at an entry: the row of `x` against the column of `w` (both narrowings and
    the final one are the identity on the extended reals; the accumulator is the zero splat). -/
theorem layer1_block_apply (x : Vec Ideal S4000x128 .f32) (w : Vec Ideal S128x128 .f32) (p : Fin 4000) (q : Fin 128) :
    (k0_pay1 (F := Ideal) x w (ix2 p q) : EReal) = ∑ k : Fin 128, (x (ix2 p k) : EReal) * (w (ix2 k q) : EReal) := by
  unfold k0_pay1
  exact Cert.PlainDot.matmul_zero_apply dot_S4000x128_S128x128_S4000x128_1_0_0_1_n_n rfl rfl
    layer1_lhs_row layer1_lhs_col layer1_rhs_row layer1_rhs_col none
    (truncf .bf16 x bitsLt_bf16_f32) (truncf .bf16 w bitsLt_bf16_f32) p q

/-- Both block offsets of a whole-buffer access are zero. -/
theorem origin2 : (![0, 0] : Fin 2 → Nat) = fun _ => 0 := funext fun a => by fin_cases a <;> rfl

/-- One term of an entry's sum: a feature times a weight. -/
abbrev layer1_term (x : S100000x128.Idx → EReal) (w : S128x128.Idx → EReal) (i : S100000x128.Idx) (j : S128x128.Idx) : EReal :=
  x i * w j

/-- x · W₁, entry by entry. -/
def layer1 (x : S100000x128.Idx → EReal) (w : S128x128.Idx → EReal) : S100000x128.Idx → EReal :=
  fun i => ∑ k : Fin 128, x (ix2 (i 0) k) * w (ix2 k (i 1))

variable (V : (c : Dev nD) → (b : Ref sig .tc) → Buf (Elt Ideal) ((c : Thread nD τ).loc b))

/-- The first grid's index maps, decided over its 25 points: the feature window moves down the rows with the
    output window, the weight window stays on the whole matrix, and the output's row-block index is the point. -/
theorem layer1_index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` of the first grid writes back is block `t` of x · W₁ of the arrays as the grid finds them. -/
theorem layer1_flushed (c : Dev nD) (t : Fin cfg0.N) :
    (dat0 (F := Ideal) V c).flushed 2 t
      = ((cfg0.win 2).blk t).view.read (Elt Ideal) (layer1 (V c main_arg0) (V c main_arg3)) := by
  show (cfg0.win 2).cut (grid0.coords t) ((dat0 V c).after 2 t) = _
  rw [after0_2]
  unfold out0_2
  rw [View.canon_unit_zero origin2]
  simp only [View.ld_unit_zero (S := S4000x128) origin2, View.ld_unit_zero (S := S128x128) origin2]
  obtain ⟨e0, e1, e2, e3, e4, e5⟩ := layer1_index_maps t
  funext j
  obtain ⟨p, q, rfl⟩ : ∃ (p : Fin 4000) (q : Fin 128), j = ix2 p q := ⟨j 0, j 1, eq_ix2 j⟩
  show k0_pay1 (iblk0 V c 0 t) (iblk0 V c 1 t) (ix2 p q)
    = layer1 (V c main_arg0) (V c main_arg3) (((cfg0.win 2).blk t).view.emb (ix2 p q))
  rw [layer1_block_apply]
  unfold layer1
  refine Finset.sum_congr rfl fun k _ => ?_
  have hp : p.val < 4000 := p.isLt
  have hq : q.val < 128 := q.isLt
  have hk : k.val < 128 := k.isLt
  have hx : ((cfg0.win 0).blk t).view.emb (ix2 p k)
      = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have hw : ((cfg0.win 1).blk t).view.emb (ix2 k q)
      = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  show layer1_term (V c main_arg0) (V c main_arg3) (((cfg0.win 0).blk t).view.emb (ix2 p k))
    (((cfg0.win 1).blk t).view.emb (ix2 k q)) = _
  rw [hx, hw]
  rfl

/-- An index of the first output array is in point `t`'s block iff each coordinate is in the block's range. -/
theorem layer1_mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v15).slice (win0_2.rect t)).set ↔ _
  rw [View.set_slice_whole, Rect.mem_set_unit]
  exact Iff.rfl

/-- The first grid has 25 points. -/
theorem layer1_points : cfg0.N = 25 := by decide

/-- Every entry of the first output array is in the block of the point its row names: row `r` is in block `r / 4000`. -/
theorem layer1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 4000 < cfg0.N := by rw [layer1_points]; omega
  obtain ⟨e0, e1, e2, e3, e4, e5⟩ := layer1_index_maps ⟨(i 0).val / 4000, ht⟩
  have e4' : win0_2.index ⟨(i 0).val / 4000, ht⟩ (0 : Fin 2) = (i 0).val / 4000 := e4
  refine ⟨⟨(i 0).val / 4000, ht⟩, flush0_2 _, ?_⟩
  rw [layer1_mem_blk]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    omega

/-- THE FIRST OUTPUT ARRAY after its grid: x · W₁ of the arrays as the grid finds them. -/
theorem layer1_array (c : Dev nD) :
    (dat0 (F := Ideal) V c).arrAt 2 cfg0.N = layer1 (V c main_arg0) (V c main_arg3) :=
  (dat0 (F := Ideal) V c).arrAt_eq_of_cover 2 (layer1 (V c main_arg0) (V c main_arg3))
    (fun t _ => layer1_flushed V c t) layer1_cover

/-- x · W₁ at an entry is the row of `x` against the column of `w`. -/
theorem layer1_apply (x : S100000x128.Idx → EReal) (w : S128x128.Idx → EReal) (p : Fin 100000) (q : Fin 128) :
    layer1 x w (ix2 p q) = ∑ k : Fin 128, x (ix2 p k) * w (ix2 k q) := rfl

/-- THE FIRST OUTPUT ARRAY READ AT AN ENTRY, the two input arrays under any names `x`, `w` for their contents when the
    grid is entered. -/
theorem layer1_entry (c : Dev nD) (x : S100000x128.Idx → EReal) (w : S128x128.Idx → EReal)
    (hx : V c main_arg0 = x) (hw : V c main_arg3 = w) (p : Fin 100000) (q : Fin 128) :
    ((dat0 (F := Ideal) V c).arrAt 2 cfg0.N (ix2 p q) : EReal) = ∑ k : Fin 128, x (ix2 p k) * w (ix2 k q) := by
  subst hx hw
  rw [layer1_array]
  rfl

/-! ## The second layer: a row block of relu(a + b) · W₂ -/

/-- The second product's left index keeps the output row … -/
theorem layer2_lhs_row (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide),
    dif_pos (show (0 : Fin S5000x128.rank) ∈ dot_S5000x128_S128x3_S5000x3_1_0_0_1_n_n.lhsNonContracting by decide)]
  rfl
/-- … and takes the contracted position as its column; -/
theorem layer2_lhs_col (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
/-- the right index takes the contracted position as its row … -/
theorem layer2_rhs_row (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
/-- … and keeps the output column. -/
theorem layer2_rhs_col (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide),
    dif_pos (show (1 : Fin S128x3.rank) ∈ dot_S5000x128_S128x3_S5000x3_1_0_0_1_n_n.rhsNonContracting by decide)]
  rfl

/-- The second layer's body on one block, at an entry: the row of `a` plus the bias row, clamped below at zero,
    against the column of `w` (the shape casts are of a shape to itself, the narrowings the identity on the extended
    reals, the clamp's constant the zero word, the accumulator the zero splat). -/
theorem layer2_block_apply (a : Vec Ideal S5000x128 .f32) (b : Vec Ideal S1x128 .f32) (w : Vec Ideal S128x3 .f32)
    (p : Fin 5000) (q : Fin 3) :
    (k1_pay1 (F := Ideal) a b w (ix2 p q) : EReal)
      = ∑ k : Fin 128, max ((a (ix2 p k) : EReal) + (b (ix2 (0 : Fin 1) k) : EReal)) 0 * (w (ix2 k q) : EReal) := by
  unfold k1_pay1
  simp only [shapeCast_self]
  refine (Cert.PlainDot.matmul_zero_apply dot_S5000x128_S128x3_S5000x3_1_0_0_1_n_n rfl rfl
    layer2_lhs_row layer2_lhs_col layer2_rhs_row layer2_rhs_col none
    (truncf .bf16 (maximumf (addf a (broadcastTo S5000x128 b broadcasts_S1x128_S5000x128))
      (broadcast S5000x128 (Scalar.ofBits .f32 0x00000000#32))) bitsLt_bf16_f32)
    (truncf .bf16 w bitsLt_bf16_f32) p q).trans ?_
  refine Finset.sum_congr rfl fun k _ => ?_
  show max (a (ix2 p k) + broadcastTo S5000x128 b broadcasts_S1x128_S5000x128 (ix2 p k)) (Ideal.ofBits .f32 0x00000000#32)
    * w (ix2 k q) = _
  rw [broadcastTo_1b_ab_apply, Ideal.ofBits_zero_f32]

/-- One term of an entry's sum: a clamped biased feature times a weight. -/
abbrev layer2_term (a : S100000x128.Idx → EReal) (b : S1x128.Idx → EReal) (w : S128x3.Idx → EReal)
    (i : S100000x128.Idx) (j : S1x128.Idx) (l : S128x3.Idx) : EReal :=
  max (a i + b j) 0 * w l

/-- relu(a + b) · W₂, entry by entry: `b` is one row, added to every row of `a`. -/
def layer2 (a : S100000x128.Idx → EReal) (b : S1x128.Idx → EReal) (w : S128x3.Idx → EReal) : S100000x3.Idx → EReal :=
  fun i => ∑ k : Fin 128, max (a (ix2 (i 0) k) + b (ix2 (0 : Fin 1) k)) 0 * w (ix2 k (i 1))

/-- The second grid's index maps, decided over its 20 points: the feature window moves down the rows with the
    output window, the bias and weight windows stay on their whole arrays, and the output's row-block index is the
    point. -/
theorem layer2_index_maps : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` of the second grid writes back is block `t` of relu(a + b) · W₂ of the arrays as the grid finds
    them. -/
theorem layer2_flushed (c : Dev nD) (t : Fin cfg1.N) :
    (dat1 (F := Ideal) V c).flushed 3 t
      = ((cfg1.win 3).blk t).view.read (Elt Ideal) (layer2 (V c main_v32) (V c main_v33) (V c main_arg5)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S1x128) origin2,
    View.ld_unit_zero (S := S128x3) origin2]
  obtain ⟨e0, e1, e2, e3, e4, e5, e6, e7⟩ := layer2_index_maps t
  funext j
  obtain ⟨p, q, rfl⟩ : ∃ (p : Fin 5000) (q : Fin 3), j = ix2 p q := ⟨j 0, j 1, eq_ix2 j⟩
  show k1_pay1 (iblk1 V c 0 t) (iblk1 V c 1 t) (iblk1 V c 2 t) (ix2 p q)
    = layer2 (V c main_v32) (V c main_v33) (V c main_arg5) (((cfg1.win 3).blk t).view.emb (ix2 p q))
  rw [layer2_block_apply]
  unfold layer2
  refine Finset.sum_congr rfl fun k _ => ?_
  have hp : p.val < 5000 := p.isLt
  have hq : q.val < 3 := q.isLt
  have hk : k.val < 128 := k.isLt
  have ha : ((cfg1.win 0).blk t).view.emb (ix2 p k)
      = ix2 ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hb : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ((cfg1.win 2).blk t).view.emb (ix2 k q)
      = ix2 k ((((cfg1.win 3).blk t).view.emb (ix2 p q)) 1) := by
    funext a; apply Fin.ext
    match a with
    | ⟨0, _⟩ => show win1_2.index t (0 : Fin 2) * 128 + 1 * k.val = k.val; omega
    | ⟨1, _⟩ => show win1_2.index t (1 : Fin 2) * 3 + 1 * q.val = win1_3.index t (1 : Fin 2) * 3 + 1 * q.val; omega
  show layer2_term (V c main_v32) (V c main_v33) (V c main_arg5) (((cfg1.win 0).blk t).view.emb (ix2 p k))
    (((cfg1.win 1).blk t).view.emb (ix2 (0 : Fin 1) k)) (((cfg1.win 2).blk t).view.emb (ix2 k q)) = _
  rw [ha, hb, hw]
  rfl

/-- An index of the second output array is in point `t`'s block iff each coordinate is in the block's range. -/
theorem layer2_mem_blk (t : Fin cfg1.N) (i : S100000x3.Idx) :
    i ∈ ((cfg1.win 3).blk t).view.set ↔ ∀ a : Fin 2, win1_3.index t a * S5000x3.size a ≤ (i a).val
      ∧ (i a).val < win1_3.index t a * S5000x3.size a + S5000x3.size a := by
  show i ∈ ((View.whole main_v34).slice (win1_3.rect t)).set ↔ _
  rw [View.set_slice_whole, Rect.mem_set_unit]
  exact Iff.rfl

/-- The second grid has 20 points. -/
theorem layer2_points : cfg1.N = 20 := by decide

/-- Every entry of the second output array is in the block of the point its row names: row `r` is in block
    `r / 5000`. -/
theorem layer2_cover (i : S100000x3.Idx) :
    ∃ t : Fin cfg1.N, (cfg1.win 3).flush t = true ∧ i ∈ ((cfg1.win 3).blk t).view.set := by
  have hi0 : (i 0).val < 100000 := (i 0).isLt
  have hi1 : (i 1).val < 3 := (i 1).isLt
  have ht : (i 0).val / 5000 < cfg1.N := by rw [layer2_points]; omega
  obtain ⟨e0, e1, e2, e3, e4, e5, e6, e7⟩ := layer2_index_maps ⟨(i 0).val / 5000, ht⟩
  have e6' : win1_3.index ⟨(i 0).val / 5000, ht⟩ (0 : Fin 2) = (i 0).val / 5000 := e6
  refine ⟨⟨(i 0).val / 5000, ht⟩, flush1_3 _, ?_⟩
  rw [layer2_mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 3 ≤ (i 1).val
      ∧ (i 1).val < win1_3.index ⟨(i 0).val / 5000, ht⟩ (1 : Fin 2) * 3 + 3
    omega

/-- THE SECOND OUTPUT ARRAY after its grid: relu(a + b) · W₂ of the arrays as the grid finds them. -/
theorem layer2_array (c : Dev nD) :
    (dat1 (F := Ideal) V c).arrAt 3 cfg1.N = layer2 (V c main_v32) (V c main_v33) (V c main_arg5) :=
  (dat1 (F := Ideal) V c).arrAt_eq_of_cover 3 (layer2 (V c main_v32) (V c main_v33) (V c main_arg5))
    (fun t _ => layer2_flushed V c t) layer2_cover

/-- relu(a + b) · W₂ at an entry is the clamped biased row of `a` against the column of `w`. -/
theorem layer2_apply (a : S100000x128.Idx → EReal) (b : S1x128.Idx → EReal) (w : S128x3.Idx → EReal)
    (p : Fin 100000) (q : Fin 3) :
    layer2 a b w (ix2 p q) = ∑ k : Fin 128, max (a (ix2 p k) + b (ix2 (0 : Fin 1) k)) 0 * w (ix2 k q) := rfl

/-- THE SECOND OUTPUT ARRAY READ AT AN ENTRY, the three input arrays under any names `a`, `b`, `w` for their contents
    when the grid is entered. -/
theorem layer2_entry (c : Dev nD) (a : S100000x128.Idx → EReal) (b : S1x128.Idx → EReal) (w : S128x3.Idx → EReal)
    (ha : V c main_v32 = a) (hb : V c main_v33 = b) (hw : V c main_arg5 = w) (p : Fin 100000) (q : Fin 3) :
    ((dat1 (F := Ideal) V c).arrAt 3 cfg1.N (ix2 p q) : EReal)
      = ∑ k : Fin 128, max (a (ix2 p k) + b (ix2 (0 : Fin 1) k)) 0 * w (ix2 k q) := by
  subst ha hb hw
  rw [layer2_array]
  rfl

end Cert.KernelIdeal.RegionValue

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibScaledSegments.lean ====
/-
  A reusable general lemma: a symmetric normalisation of a segment sum, applied per summand or per segment, on the extended
  reals.

  A graph convolution normalised by node degrees weights the contribution of an edge e that ends at node n by
  s(e) · 1 · d(n), where s(e) is the factor of the edge's source and d(n) the factor of its destination. The destination's
  factor is the same for every edge of the segment, so it may instead multiply the finished segment sum:
      (∑_{e ends at n} a(e) · s(e)) · d(n) = ∑_{e ends at n} a(e) · (s(e) · 1 · d(n)).
  On the extended reals a factor moves across a finite sum only when it is nonnegative and finite (multiplying +∞ + −∞ = −∞
  by a negative number turns it into +∞, while the summands' products add to −∞); the summands a(e) · s(e) themselves may
  be anything. The factor of a node is such a number whatever its degree: it is the reciprocal square root of the degree
  where the degree is positive — a positive real, or 0 at degree +∞ — and 0 elsewhere.
-/
import Idealize.ShloMosaic.PureOps.Ideal

noncomputable section

open scoped BigOperators

namespace Cert.ScaledSegments

open Idealize.ShloMosaic

/-- A nonnegative finite factor moves into a finite sum of extended reals. -/
theorem sum_mul_of_nonneg_of_ne_top {ι : Type} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- The degree's factor — the reciprocal square root where the degree is positive, zero elsewhere — is a nonnegative
    real at every extended real degree: a positive real degree gives a positive real, the degree +∞ gives 0. -/
theorem select_rsqrt_eq_coe (d : EReal) :
    ∃ r : ℝ, 0 ≤ r ∧ Scalar.select (Ideal.cmp .ogt d 0) (Ideal.rsqrt d) (0 : EReal) = (r : EReal) := by
  induction d using EReal.rec with
  | bot => exact ⟨0, le_rfl, by simp [Ideal.cmp, Scalar.select]⟩
  | top => exact ⟨0, le_rfl, by simp [Ideal.cmp, Scalar.select]⟩
  | coe x =>
    by_cases hx : 0 < x
    · refine ⟨(Real.sqrt x)⁻¹, inv_nonneg.mpr (Real.sqrt_nonneg x), ?_⟩
      have h1 : Ideal.cmp .ogt (x : EReal) 0 = 1 := by
        simp [Ideal.cmp, hx]
      rw [h1, Ideal.rsqrt_coe, if_neg (not_lt.mpr hx.le), if_neg hx.ne']
      simp [Scalar.select]
    · refine ⟨0, le_rfl, ?_⟩
      have h0 : Ideal.cmp .ogt (x : EReal) 0 = 0 := by
        simp [Ideal.cmp, hx]
      rw [h0]
      simp [Scalar.select]

/-- So it is nonnegative and not +∞. -/
theorem select_rsqrt_nonneg_ne_top (d : EReal) :
    0 ≤ Scalar.select (Ideal.cmp .ogt d 0) (Ideal.rsqrt d) (0 : EReal)
      ∧ Scalar.select (Ideal.cmp .ogt d 0) (Ideal.rsqrt d) (0 : EReal) ≠ ⊤ := by
  obtain ⟨r, hr, e⟩ := select_rsqrt_eq_coe d
  rw [e]
  exact ⟨by exact_mod_cast hr, EReal.coe_ne_top r⟩

/-- THE LAW: the destination's factor, applied to the finished segment sum, equals it applied inside every summand
    (as `s · 1 · d`), the sum starting from zero on both sides. `tgt e` says that summand e belongs to the segment. -/
theorem segment_scale {ι : Type} [Fintype ι] (tgt : ι → Prop) [DecidablePred tgt] (a s nrm : ι → EReal) {d : EReal}
    (hd : 0 ≤ d) (hd' : d ≠ ⊤) (hn : ∀ e, tgt e → nrm e = s e * 1 * d) :
    (0 + ∑ e, if tgt e then a e * s e else 0) * d = 0 + ∑ e, if tgt e then a e * nrm e else 0 := by
  rw [zero_add, zero_add, sum_mul_of_nonneg_of_ne_top _ _ hd hd']
  refine Finset.sum_congr rfl fun e _ => ?_
  by_cases h : tgt e
  · rw [if_pos h, if_pos h, hn e h, mul_one, mul_assoc]
  · rw [if_neg h, if_neg h, zero_mul]

end Cert.ScaledSegments

end
-- ==== Proof.LibSeparableNorm.lean ====
/-
  A reusable general lemma: a graph aggregation normalised by node factors, the destination's factor applied to the
  finished segment sums or inside every summand — as whole-array operations.

  Let x be an N × C table of node features, s a vector of N node factors, and let E edges be given by three columns
  of integer indices: src (the row an edge reads), dst (the row it adds to) and dstw (the position at which the
  destination's factor is looked up). One way to normalise: scale row n of the table by s n, gather the rows named
  by src, add each gathered row into the row named by dst, and scale row n of the sums by s n again. The other way:
  gather the rows of the unscaled table, multiply the row of edge e by s(src e) · s(dstw e), and add it into the row
  named by dst. Entry (n, c) is, the first way,

      (∑_{e : dst e = n} x (src e, c) · s (src e)) · s n,

  and the second way ∑_{e : dst e = n} x (src e, c) · (s (src e) · s (dstw e)). A scatter drops an edge whose
  destination is out of range, a gather clamps its index into range; so the two agree as soon as, for every edge
  that lands on a row n, the clamped lookup position dstw e is n too — and as soon as s n is a nonnegative finite
  number, which is what lets it move across a finite sum of extended reals (the summands may be anything).
  The factor of a node of degree d in a graph with self loops, (max d 1)^(-1/2), is such a number for EVERY extended
  real d: max d 1 is at least 1, the reciprocal root of a real at least 1 is a positive real, and that of +∞ is 0.
-/
import Idealize.ShloMosaic.Lib.ValueIdx
import Idealize.ShloMosaic.PureOps.Ideal
import proofs.«126724_j82497731822011_2_alg».proof.Proof.LibGatherRows
import proofs.«126724_j82497731822011_2_alg».proof.Proof.LibVecIndex
import proofs.«126724_j82497731822011_2_alg».proof.Proof.LibJoinIota
import proofs.«126724_j82497731822011_2_alg».proof.Proof.LibScatterRows
import proofs.«126724_j82497731822011_2_alg».proof.Proof.LibScaledSegments

noncomputable section

open scoped BigOperators

namespace Cert.SeparableNorm

open Idealize.ShloMosaic Idealize.ShloMosaic.ValueIdx

/-- The reciprocal square root of max d 1 is a nonnegative real, whatever the extended real d. -/
theorem rsqrt_max_one_nonneg_ne_top (d : EReal) :
    0 ≤ Ideal.rsqrt (max d 1) ∧ Ideal.rsqrt (max d 1) ≠ ⊤ := by
  have h1 : (1 : EReal) ≤ max d 1 := le_max_right d 1
  generalize max d 1 = y at h1
  induction y using EReal.rec with
  | bot => exact absurd h1 (not_le.mpr (by simpa using EReal.bot_lt_coe 1))
  | top => simp
  | coe r =>
    have hr : (1 : ℝ) ≤ r := by exact_mod_cast h1
    rw [Ideal.rsqrt_coe, if_neg (by linarith), if_neg (by linarith)]
    exact ⟨by exact_mod_cast inv_nonneg.mpr (Real.sqrt_nonneg r), EReal.coe_ne_top _⟩

/-- THE LAW, for whole arrays: scaling the table's rows by the node factors, aggregating, and scaling the sums'
    rows again equals aggregating the unscaled rows each weighted by the product of the two gathered factors. The
    records are any records of the row scatter, the row gather and the vector gather (the equations by rfl on a
    program's literal records); z is the array of zeros the sums start from. -/
theorem aggregate_scaled_rows {N E C w : Nat} {φ : FTy} (hN : 0 < N)
    (wfs : ScatterDims.WF ⟨2, ![N, C]⟩ ⟨2, ![E, 1]⟩ ⟨2, ![E, C]⟩ [1] [0] [0] 1)
    (wfr : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (ds : ScatterDims ⟨2, ![N, C]⟩ ⟨2, ![E, 1]⟩ ⟨2, ![E, C]⟩) (hds : ds = ScatterRows.rowDims N E C wfs)
    (dr : GatherDims ⟨2, ![N, C]⟩ ⟨2, ![E, 1]⟩ ⟨2, ![E, C]⟩) (hdr : dr = GatherRows.rowDims N E C wfr)
    (dv : GatherDims ⟨1, ![N]⟩ ⟨2, ![E, 1]⟩ ⟨1, ![E]⟩) (hdv : dv = GatherVec.vecDims N E wfv)
    (hNcol : (⟨1, ![N]⟩ : Shape).BroadcastsInDim ⟨2, ![N, 1]⟩ ![0])
    (hNC : (⟨2, ![N, 1]⟩ : Shape).BroadcastsInDim ⟨2, ![N, C]⟩ ![0, 1])
    (hEcol : (⟨1, ![E]⟩ : Shape).BroadcastsInDim ⟨2, ![E, 1]⟩ ![0])
    (hEC : (⟨2, ![E, 1]⟩ : Shape).BroadcastsInDim ⟨2, ![E, C]⟩ ![0, 1])
    (z : FVec Ideal ⟨2, ![N, C]⟩ φ) (hz : ∀ i, (z i : EReal) = 0)
    (x : FVec Ideal ⟨2, ![N, C]⟩ φ) (s : FVec Ideal ⟨1, ![N]⟩ φ)
    (hs : ∀ n : Fin N, 0 ≤ (s (ix1 n) : EReal) ∧ (s (ix1 n) : EReal) ≠ ⊤)
    (src dst dstw : IVec ⟨2, ![E, 1]⟩ w)
    (hdst : ∀ (e : Fin E) (n : Fin N), (dst (ix2 e (0 : Fin 1))).toInt = (n.val : Int) →
      min (dstw (ix2 e (0 : Fin 1))).toInt.toNat (N - 1) = n.val) :
    mulf (F := Ideal) (φ := φ)
        (Host.scatterAdd ds z dst (Host.gather dr (mulf (F := Ideal) (φ := φ) x
          (broadcastInDim ⟨2, ![N, C]⟩ ![0, 1] hNC (broadcastInDim ⟨2, ![N, 1]⟩ ![0] hNcol s))) src))
        (broadcastInDim ⟨2, ![N, C]⟩ ![0, 1] hNC (broadcastInDim ⟨2, ![N, 1]⟩ ![0] hNcol s))
      = Host.scatterAdd ds z dst (mulf (F := Ideal) (φ := φ) (Host.gather dr x src)
          (broadcastInDim ⟨2, ![E, C]⟩ ![0, 1] hEC (broadcastInDim ⟨2, ![E, 1]⟩ ![0] hEcol
            (mulf (F := Ideal) (φ := φ) (Host.gather dv s src) (Host.gather dv s dstw))))) := by
  subst hds hdr hdv
  funext j
  obtain ⟨n, c, rfl⟩ : ∃ (n : Fin N) (c : Fin C), j = ix2 n c := ⟨j 0, j 1, eq_ix2 j⟩
  rw [mulf_apply, ScatterRows.host_scatterAdd_rows_apply wfs _ rfl, ScatterRows.host_scatterAdd_rows_apply wfs _ rfl,
    JoinIota.broadcast_column_apply, JoinIota.broadcast_vec_column_apply, hz]
  have hl : ∀ e : Fin E,
      Host.gather (GatherRows.rowDims N E C wfr) (mulf (F := Ideal) (φ := φ) x
          (broadcastInDim ⟨2, ![N, C]⟩ ![0, 1] hNC (broadcastInDim ⟨2, ![N, 1]⟩ ![0] hNcol s))) src (ix2 e c)
        = (x (ix2 ⟨min (src (ix2 e (0 : Fin 1))).toInt.toNat (N - 1), by omega⟩ c) : EReal)
          * s (ix1 ⟨min (src (ix2 e (0 : Fin 1))).toInt.toNat (N - 1), by omega⟩) := by
    intro e
    rw [GatherRows.gather_rows_apply hN, mulf_apply, JoinIota.broadcast_column_apply,
      JoinIota.broadcast_vec_column_apply]
  have hr : ∀ e : Fin E,
      mulf (F := Ideal) (φ := φ) (Host.gather (GatherRows.rowDims N E C wfr) x src)
          (broadcastInDim ⟨2, ![E, C]⟩ ![0, 1] hEC (broadcastInDim ⟨2, ![E, 1]⟩ ![0] hEcol
            (mulf (F := Ideal) (φ := φ) (Host.gather (GatherVec.vecDims N E wfv) s src)
              (Host.gather (GatherVec.vecDims N E wfv) s dstw)))) (ix2 e c)
        = (x (ix2 ⟨min (src (ix2 e (0 : Fin 1))).toInt.toNat (N - 1), by omega⟩ c) : EReal)
          * (s (ix1 ⟨min (src (ix2 e (0 : Fin 1))).toInt.toNat (N - 1), by omega⟩)
              * s (ix1 ⟨min (dstw (ix2 e (0 : Fin 1))).toInt.toNat (N - 1), by omega⟩)) := by
    intro e
    rw [mulf_apply, GatherRows.gather_rows_apply hN, JoinIota.broadcast_column_apply,
      JoinIota.broadcast_vec_column_apply, mulf_apply, GatherVec.gather_vec_apply hN, GatherVec.gather_vec_apply hN]
  simp only [hl, hr]
  refine ScaledSegments.segment_scale (fun e : Fin E => (dst (ix2 e (0 : Fin 1))).toInt = (n.val : Int))
    (fun e => (x (ix2 ⟨min (src (ix2 e (0 : Fin 1))).toInt.toNat (N - 1), by omega⟩ c) : EReal))
    (fun e => (s (ix1 ⟨min (src (ix2 e (0 : Fin 1))).toInt.toNat (N - 1), by omega⟩) : EReal))
    (fun e => (s (ix1 ⟨min (src (ix2 e (0 : Fin 1))).toInt.toNat (N - 1), by omega⟩) : EReal)
      * s (ix1 ⟨min (dstw (ix2 e (0 : Fin 1))).toInt.toNat (N - 1), by omega⟩))
    (hs n).1 (hs n).2 fun e he => ?_
  have hn : (⟨min (dstw (ix2 e (0 : Fin 1))).toInt.toNat (N - 1), by omega⟩ : Fin N) = n := Fin.ext (hdst e n he)
  rw [hn, mul_one]

end Cert.SeparableNorm

end
-- ==== Proof.NormFacts.lean ====
/-
  What the normalisation law asks of the reference's intermediate arrays.

  The graph has 100000 nodes and 1700000 edges (the given ones followed by one self loop per node). The degree of
  node n counts the edges that end at n; the node's factor is (max degree 1)^(-1/2), a nonnegative real whatever the
  degree. Sums start from an array of zeros. The position at which the destination's factor is looked up is the
  edge's destination with a negative value wrapped by the number of nodes; for an edge whose destination, read
  signed, is a row n of the table, nothing is wrapped and clamping into range changes nothing, so the lookup reads
  the factor of n itself.
-/
import proofs.«126724_j82497731822011_2_alg».proof.Proof.Gen.ReferenceIdeal.Read
import proofs.«126724_j82497731822011_2_alg».proof.Proof.LibSeparableNorm
import proofs.«126724_j82497731822011_2_alg».proof.Proof.LibJoinIota
import Idealize.ShloMosaic.Lib.IdealHost
import Idealize.ShloMosaic.Lib.ValueIdx

set_option maxRecDepth 16384

noncomputable section

namespace Cert.ReferenceIdeal.NormFacts

open Cert.ReferenceIdeal Cert.ReferenceIdeal.Facts₀ Cert.ReferenceIdeal.Read Idealize.ShloMosaic Idealize.ShloMosaic.ValueIdx

variable (x1 : (⟨S2x1600000, .i32⟩ : BufTy).Contents (Elt Ideal))

/-- A node's factor is a nonnegative real: the reciprocal root of a number that is at least 1. -/
theorem factor_nonneg_ne_top (n : Fin 100000) :
    0 ≤ (val_main_v14 (F := Ideal) x1 (ix1 n) : EReal) ∧ (val_main_v14 (F := Ideal) x1 (ix1 n) : EReal) ≠ ⊤ := by
  rw [val_main_v14_apply, val_main_v13_apply, val_main_v12_apply, val_main_cst_1_apply]
  simp only [Ideal.hostUnary_rsqrt_def, Ideal.maximumf_def, Ideal.ofBits_def, Ideal.ofBits_one_f32]
  exact SeparableNorm.rsqrt_max_one_nonneg_ne_top _

/-- The second layer recomputes the same factors from the same edges. -/
theorem factor_again : val_main_v54 (F := Ideal) x1 = val_main_v14 (F := Ideal) x1 := rfl

/-- The sums of the first layer start from zeros, -/
theorem zeros128 (i : S100000x128.Idx) : (val_main_v40 (F := Ideal) i : EReal) = 0 := by
  rw [val_main_v40_apply, val_main_cst_7_apply]
  exact Ideal.ofBits_zero_f32

/-- and so do the sums of the second. -/
theorem zeros3 (i : S100000x3.Idx) : (val_main_v80 (F := Ideal) i : EReal) = 0 := by
  rw [val_main_v80_apply, val_main_cst_17_apply]
  exact Ideal.ofBits_zero_f32

/-- An edge that lands on row n looks its destination's factor up at n: the wrapped index is the destination itself
    when that is not negative, and n is in range already. (First layer's lookup column.) -/
theorem lookup_dst (e : Fin 1700000) (n : Fin 100000)
    (h : (val_main_v41 (F := Ideal) x1 (ix2 e (0 : Fin 1))).toInt = (n.val : Int)) :
    min (val_main_v27 (F := Ideal) x1 (ix2 e (0 : Fin 1))).toInt.toNat (100000 - 1) = n.val := by
  have hn := n.isLt
  have h6 : (val_main_v6 (F := Ideal) x1 (ix1 e)).toInt = (n.val : Int) := by
    have e41 : val_main_v41 (F := Ideal) x1 (ix2 e (0 : Fin 1)) = val_main_v6 (F := Ideal) x1 (ix1 e) :=
      JoinIota.broadcast_vec_column_apply bcast_S1700000_S1700000x1_0 (val_main_v6 (F := Ideal) x1) e
    rw [← e41]; exact h
  have e27 : val_main_v27 (F := Ideal) x1 (ix2 e (0 : Fin 1)) = val_main_v6 (F := Ideal) x1 (ix1 e) :=
    (JoinIota.broadcast_vec_column_apply bcast_S1700000_S1700000x1_0 (val_main_v26 (F := Ideal) x1) e).trans
      (JoinIota.wrap_index_of_nonneg (100000#32) bcast_S_S1700000 (val_main_v6 (F := Ideal) x1) (ix1 e) (by omega))
  rw [e27, h6]
  omega

/-- The second layer's lookup column is the same array. -/
theorem lookup_again : val_main_v67 (F := Ideal) x1 = val_main_v27 (F := Ideal) x1 := rfl

/-- The destination column is one array throughout: the degree's, the first layer's and the second's. -/
theorem dst_again : val_main_v81 (F := Ideal) x1 = val_main_v41 (F := Ideal) x1 := rfl

/-- The source column is one array in both layers, for the table and for the factors. -/
theorem src_again : val_main_v75 (F := Ideal) x1 = val_main_v35 (F := Ideal) x1 := rfl
theorem src_factor : val_main_v20 (F := Ideal) x1 = val_main_v35 (F := Ideal) x1 := rfl
theorem src_factor_again : val_main_v60 (F := Ideal) x1 = val_main_v35 (F := Ideal) x1 := rfl

end Cert.ReferenceIdeal.NormFacts

end
-- ==== Proof.LibStackedRows.lean ====
/-
  Rows and slabs of stacked parameters read at an index.

  A network's per-channel parameters arrive either as a vector of length a or as row k of an n × a stack; a program that
  wants them as a 1 × a row reshapes the vector, or cuts the one row out, flattens it and reshapes it again.  Read at
  (0, q) each of these is the parameter's entry q: a reshape keeps the row-major position, and the row cut out at offset
  k starts at row k.  Likewise slab k of an n × a × b stack, cut out and flattened to a × b, reads at (p, q) as the
  stack's entry (k, p, q).
-/
import Idealize.ShloMosaic.Lib.ValueIdx
import Idealize.ShloMosaic.Lib.ValueLayout
import Idealize.ShloMosaic.Lib.Pipeline.Value

noncomputable section

namespace Cert.StackedRows

open Idealize.ShloMosaic Idealize.ShloMosaic.ValueIdx

variable {α : Type}

/-- A vector reshaped to a 1 × a row reads at (0, q) as the vector's entry q. -/
theorem row_of_vec {a : ℕ} (x : (⟨1, ![a]⟩ : Shape).Idx → α) (h : (⟨1, ![a]⟩ : Shape).ShapeCasts ⟨2, ![1, a]⟩) (q : Fin a) :
    shapeCast ⟨2, ![1, a]⟩ x h (ix2 (0 : Fin 1) q) = x (ix1 q) := shapeCast_a_1a_apply x h 0 q

/-- Row k of an n × a stack, cut out, flattened and reshaped to a 1 × a row, reads at (0, q) as the stack's entry (k, q). -/
theorem row_of_stack {n a : ℕ} (j : ℕ) (X : (⟨2, ![n, a]⟩ : Shape).Idx → α)
    (hs : (⟨2, ![n, a]⟩ : Shape).Slices ![j, 0] ⟨2, ![1, a]⟩)
    (h1 : (⟨2, ![1, a]⟩ : Shape).ShapeCasts ⟨1, ![a]⟩) (h2 : (⟨1, ![a]⟩ : Shape).ShapeCasts ⟨2, ![1, a]⟩)
    (k : Fin n) (hk : k.val = j) (q : Fin a) :
    shapeCast ⟨2, ![1, a]⟩ (shapeCast ⟨1, ![a]⟩ (extractStridedSlice ⟨2, ![1, a]⟩ ![j, 0] X hs) h1) h2 (ix2 (0 : Fin 1) q)
      = X (ix2 k q) := by
  rw [shapeCast_a_1a_apply, shapeCast_1a_a_apply]
  exact slice2_axis0_apply j X hs (0 : Fin 1) q k (by rw [hk]; rfl)

/-- Slab k of an n × a × b stack, cut out and flattened to a × b, reads at (p, q) as the stack's entry (k, p, q). -/
theorem slab_of_stack {n a b : ℕ} (j : ℕ) (X : (⟨3, ![n, a, b]⟩ : Shape).Idx → α)
    (hs : (⟨3, ![n, a, b]⟩ : Shape).Slices ![j, 0, 0] ⟨3, ![1, a, b]⟩)
    (h1 : (⟨3, ![1, a, b]⟩ : Shape).ShapeCasts ⟨2, ![a, b]⟩) (k : Fin n) (hk : k.val = j) (p : Fin a) (q : Fin b) :
    shapeCast ⟨2, ![a, b]⟩ (extractStridedSlice ⟨3, ![1, a, b]⟩ ![j, 0, 0] X hs) h1 (ix2 p q) = X (ix3 k p q) := by
  rw [shapeCast_1ab_ab_apply]
  exact extractStridedSlice_apply _ _ _ _ _ (fun ax => by
    match ax with
    | ⟨0, _⟩ => exact hk.trans (Nat.add_zero j).symm
    | ⟨1, _⟩ => exact (Nat.zero_add _).symm
    | ⟨2, _⟩ => exact (Nat.zero_add _).symm)

end Cert.StackedRows

end
-- ==== Proof.Stages2.lean ====
/-
  The idealized kernel's first layer and its second product, read against the reference's intermediate arrays.

  The first region leaves in its output the matrix product of the features with the first weights, which is the
  reference's product entry by entry. The host operations after it scale row n of the product by the factor of
  node n, gather the rows the edges read, add each into the row its edge ends at, and scale row n of the sums by the
  factor of n again; the reference weights each gathered row of the unscaled product by the product of the two
  gathered factors and adds. The two are one array: the destination's factor is a nonnegative real and the same for
  every edge of a segment, so it moves across the segment's sum. The second region then leaves relu(aggregate + bias)
  times the second weights, which is the reference's second product entry by entry.
-/
import proofs.«126724_j82497731822011_2_alg».proof.Proof.Stages1
import proofs.«126724_j82497731822011_2_alg».proof.Proof.RegionProducts
import proofs.«126724_j82497731822011_2_alg».proof.Proof.NormFacts
import proofs.«126724_j82497731822011_2_alg».proof.Proof.LibSeparableNorm
import proofs.«126724_j82497731822011_2_alg».proof.Proof.LibStackedRows
import Idealize.ShloMosaic.Lib.IdealHost

set_option maxRecDepth 16384

noncomputable section

namespace Cert.KernelIdeal.Stages

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

open Cert.KernelIdeal.RegionValue

/-! ## The argument arrays under typed names -/

/-- The node features, the first layer's weights and bias, the second layer's weights, as launched; and the bias row
    the second region reads. -/
abbrev feat : (⟨S100000x128, .f32⟩ : BufTy).Contents (Elt Ideal) := m ((c : Thread nD τ).loc main_arg0)
abbrev weights1 : (⟨S128x128, .f32⟩ : BufTy).Contents (Elt Ideal) := m ((c : Thread nD τ).loc main_arg3)
abbrev bias1 : (⟨S128, .f32⟩ : BufTy).Contents (Elt Ideal) := m ((c : Thread nD τ).loc main_arg4)
abbrev weights2 : (⟨S128x3, .f32⟩ : BufTy).Contents (Elt Ideal) := m ((c : Thread nD τ).loc main_arg5)
abbrev biasRow : (⟨S1x128, .f32⟩ : BufTy).Contents (Elt Ideal) := W3 m ρ c (Proc.devRef .tc main_v33)

/-! ## The first region's output is the reference's first product -/

theorem W2_v15 : (W2 m ρ c (Proc.devRef .tc main_v15) : S100000x128.Idx → EReal)
    = Cert.ReferenceIdeal.Read.val_main_v7 (F := Ideal) (m ((c : Thread nD τ).loc main_arg0)) (m ((c : Thread nD τ).loc main_arg3)) := by
  refine (W2_arr m ρ c 2).trans ?_
  funext j
  obtain ⟨p, q, rfl⟩ : ∃ (p : Fin 100000) (q : Fin 128), j = ix2 p q := ⟨j 0, j 1, eq_ix2 j⟩
  have hk : ((dat0 (F := Ideal) (V1 m ρ) c).arrAt 2 cfg0.N (ix2 p q) : EReal)
      = ∑ k : Fin 128, feat m c (ix2 p k) * weights1 m c (ix2 k q) :=
    layer1_entry (V1 m ρ) c (feat m c) (weights1 m c) (W1_arg0 m ρ c) (W1_arg3 m ρ c) p q
  have hr : Cert.ReferenceIdeal.Read.val_main_v7 (F := Ideal) (feat m c) (weights1 m c) (ix2 p q)
      = ∑ k : Fin 128, feat m c (ix2 p k) * weights1 m c (ix2 k q) := by
    rw [Cert.ReferenceIdeal.Read.val_main_v7_apply]
    refine Finset.sum_congr rfl fun k _ => ?_
    have el : Cert.ReferenceIdeal.Read.lidx_main_v7 (ix2 p q) k = ix2 p k := funext fun a => Fin.ext (by
      match a with
      | ⟨0, _⟩ => rfl
      | ⟨1, _⟩ => rfl)
    have er : Cert.ReferenceIdeal.Read.ridx_main_v7 (ix2 p q) k = ix2 k q := funext fun a => Fin.ext (by
      match a with
      | ⟨0, _⟩ => rfl
      | ⟨1, _⟩ => rfl)
    rw [el, er]
  exact hk.trans hr.symm

/-! ## The first layer's aggregate is the reference's -/

set_option maxHeartbeats 4000000 in
theorem W3_v32 : (W3 m ρ c (Proc.devRef .tc main_v32) : S100000x128.Idx → EReal)
    = Cert.ReferenceIdeal.Read.val_main_v42 (F := Ideal) (m ((c : Thread nD τ).loc main_arg0)) (m ((c : Thread nD τ).loc main_arg1)) (m ((c : Thread nD τ).loc main_arg3)) := by
  dsimp only [W3, hostOps1]
  after_results
  rw [W2_v15 m ρ c, W2_v14 m ρ c, W1_v14 m ρ c, W2_v3 m ρ c, W1_v3 m ρ c, W2_v6 m ρ c, W1_v6 m ρ c]
  simp only [truncf_id, extf_id]
  refine (SeparableNorm.aggregate_scaled_rows (N := 100000) (E := 1700000) (C := 128) (w := 32) (φ := .f32) (by decide)
    Facts₀.scatter_S100000x128_S1700000x1_S1700000x128_1_0_0_1_wf
    Facts₀.gather_S100000x128_S1700000x1_S1700000x128_1_0_n_n_0_1_1128_wf
    Cert.ReferenceIdeal.Facts₀.gather_S100000_S1700000x1_S1700000_n_0_n_n_0_1_1_wf
    scatter_S100000x128_S1700000x1_S1700000x128_1_0_0_1 rfl
    gather_S100000x128_S1700000x1_S1700000x128_1_0_n_n_0_1_1128 rfl
    Cert.ReferenceIdeal.gather_S100000_S1700000x1_S1700000_n_0_n_n_0_1_1 rfl
    Facts₀.bcast_S100000_S100000x1_0 Facts₀.bcast_S100000x1_S100000x128_0_1
    Facts₀.bcast_S1700000_S1700000x1_0 Cert.ReferenceIdeal.Facts₀.bcast_S1700000x1_S1700000x128_0_1
    _ (fun i => Cert.ReferenceIdeal.NormFacts.zeros128 i)
    (Cert.ReferenceIdeal.Read.val_main_v7 (F := Ideal) (m ((c : Thread nD τ).loc main_arg0)) (m ((c : Thread nD τ).loc main_arg3)))
    (Cert.ReferenceIdeal.Read.val_main_v14 (F := Ideal) (m ((c : Thread nD τ).loc main_arg1)))
    (Cert.ReferenceIdeal.NormFacts.factor_nonneg_ne_top (m ((c : Thread nD τ).loc main_arg1)))
    (Cert.ReferenceIdeal.Read.val_main_v35 (F := Ideal) (m ((c : Thread nD τ).loc main_arg1)))
    (Cert.ReferenceIdeal.Read.val_main_v41 (F := Ideal) (m ((c : Thread nD τ).loc main_arg1)))
    (Cert.ReferenceIdeal.Read.val_main_v27 (F := Ideal) (m ((c : Thread nD τ).loc main_arg1)))
    (Cert.ReferenceIdeal.NormFacts.lookup_dst (m ((c : Thread nD τ).loc main_arg1)))).trans ?_
  rfl

/-! ## The bias row and the second region's output -/

/-- The bias vector reshaped to a row reads at (0, k) as its entry k. -/
theorem W3_v33_row (k : Fin 128) :
    (W3 m ρ c (Proc.devRef .tc main_v33) : S1x128.Idx → EReal) (ix2 (0 : Fin 1) k) = (m ((c : Thread nD τ).loc main_arg4)) (ix1 k) := by
  dsimp only [W3, hostOps1]
  after_results
  show shapeCast S1x128 (W2 m ρ c (Proc.devRef .tc main_arg4)) Facts₀.shapeCasts_S128_S1x128 (ix2 (0 : Fin 1) k) = _
  rw [StackedRows.row_of_vec, W2_arg4 m ρ c, W1_arg4 m ρ c]

/-- The second region's output is the reference's second product. -/
theorem W4_v34 : (W4 m ρ c (Proc.devRef .tc main_v34) : S100000x3.Idx → EReal)
    = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 3).trans ?_
  funext j
  obtain ⟨p, q, rfl⟩ : ∃ (p : Fin 100000) (q : Fin 3), j = ix2 p q := ⟨j 0, j 1, eq_ix2 j⟩
  have hk : ((dat1 (F := Ideal) (V3 m ρ) c).arrAt 3 cfg1.N (ix2 p q) : EReal)
      = ∑ k : Fin 128, max (Cert.ReferenceIdeal.Read.val_main_v42 (F := Ideal) (feat m c) (m ((c : Thread nD τ).loc main_arg1)) (weights1 m c) (ix2 p k)
          + biasRow m ρ c (ix2 (0 : Fin 1) k)) 0 * weights2 m c (ix2 k q) :=
    layer2_entry (V3 m ρ) c (Cert.ReferenceIdeal.Read.val_main_v42 (F := Ideal) (feat m c) (m ((c : Thread nD τ).loc main_arg1)) (weights1 m c))
      (biasRow m ρ c) (weights2 m c) (W3_v32 m ρ c) rfl (W3_arg5 m ρ c) p q
  have hr : Cert.ReferenceIdeal.Read.val_main_v47 (F := Ideal) (feat m c) (m ((c : Thread nD τ).loc main_arg1)) (weights1 m c) (bias1 m c) (weights2 m c) (ix2 p q)
      = ∑ k : Fin 128, max (Cert.ReferenceIdeal.Read.val_main_v42 (F := Ideal) (feat m c) (m ((c : Thread nD τ).loc main_arg1)) (weights1 m c) (ix2 p k)
          + biasRow m ρ c (ix2 (0 : Fin 1) k)) 0 * weights2 m c (ix2 k q) := by
    rw [Cert.ReferenceIdeal.Read.val_main_v47_apply]
    refine Finset.sum_congr rfl fun k _ => ?_
    have el : Cert.ReferenceIdeal.Read.lidx_main_v47 (ix2 p q) k = ix2 p k := funext fun a => Fin.ext (by
      match a with
      | ⟨0, _⟩ => rfl
      | ⟨1, _⟩ => rfl)
    have er : Cert.ReferenceIdeal.Read.ridx_main_v47 (ix2 p q) k = ix2 k q := funext fun a => Fin.ext (by
      match a with
      | ⟨0, _⟩ => rfl
      | ⟨1, _⟩ => rfl)
    have eb : Cert.ReferenceIdeal.Read.idx_main_v43 (Cert.ReferenceIdeal.Read.idx_main_v44 (ix2 p k)) = ix1 k := funext fun a => Fin.ext (by
      match a with
      | ⟨0, _⟩ => rfl)
    rw [el, er, Cert.ReferenceIdeal.Read.val_main_v46_apply, Cert.ReferenceIdeal.Read.val_main_v45_apply, Cert.ReferenceIdeal.Read.val_main_v44_apply, Cert.ReferenceIdeal.Read.val_main_v43_apply,
      Cert.ReferenceIdeal.Read.val_main_call0_v0_apply, Cert.ReferenceIdeal.Read.val_main_call0_cst_apply, eb,
      show biasRow m ρ c (ix2 (0 : Fin 1) k) = bias1 m c (ix1 k) from W3_v33_row m ρ c k]
    simp only [Ideal.maximumf_def, Ideal.addf_def, Ideal.ofBits_def, Ideal.ofBits_zero_f32]
  exact hk.trans hr.symm

end Cert.KernelIdeal.Stages

end
-- ==== Proof.Stages3.lean ====
/-
  The idealized kernel's result is the reference's.

  After the second region the program scales row n of the second product by the factor of node n, gathers the rows
  the edges read, adds each into the row its edge ends at, scales row n of the sums by the factor of n again and
  adds the bias row. The reference weights each gathered row of the unscaled product by the product of the two
  gathered factors, adds, and adds the bias row. The normalisation law makes the two aggregates one array, as in
  the first layer; the bias is added to both in the same way.
-/
import proofs.«126724_j82497731822011_2_alg».proof.Proof.Stages2

set_option maxRecDepth 16384

noncomputable section

namespace Cert.KernelIdeal.Stages

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

set_option maxHeartbeats 4000000 in
/-- The second layer's normalised aggregate is the reference's aggregate. -/
theorem aggregate2 :
    mulf (F := Ideal) (φ := .f32)
        (Host.scatterAdd scatter_S100000x3_S1700000x1_S1700000x3_1_0_0_1
          (broadcastInDim S100000x3 ![] Facts₀.bcast_S_S100000x3 (constant (F := Ideal) S_ .f32 0x00000000#32))
          (Cert.ReferenceIdeal.Read.val_main_v41 (F := Ideal) (m ((c : Thread nD τ).loc main_arg1)))
          (Host.gather gather_S100000x3_S1700000x1_S1700000x3_1_0_n_n_0_1_13
            (mulf (F := Ideal) (φ := .f32) (Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)))
              (broadcastInDim S100000x3 ![0, 1] Facts₀.bcast_S100000x1_S100000x3_0_1
                (broadcastInDim S100000x1 ![0] Facts₀.bcast_S100000_S100000x1_0 (Cert.ReferenceIdeal.Read.val_main_v14 (F := Ideal) (m ((c : Thread nD τ).loc main_arg1))))))
            (Cert.ReferenceIdeal.Read.val_main_v35 (F := Ideal) (m ((c : Thread nD τ).loc main_arg1)))))
        (broadcastInDim S100000x3 ![0, 1] Facts₀.bcast_S100000x1_S100000x3_0_1
          (broadcastInDim S100000x1 ![0] Facts₀.bcast_S100000_S100000x1_0 (Cert.ReferenceIdeal.Read.val_main_v14 (F := Ideal) (m ((c : Thread nD τ).loc main_arg1)))))
      = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (SeparableNorm.aggregate_scaled_rows (N := 100000) (E := 1700000) (C := 3) (w := 32) (φ := .f32) (by decide)
    Facts₀.scatter_S100000x3_S1700000x1_S1700000x3_1_0_0_1_wf
    Facts₀.gather_S100000x3_S1700000x1_S1700000x3_1_0_n_n_0_1_13_wf
    Cert.ReferenceIdeal.Facts₀.gather_S100000_S1700000x1_S1700000_n_0_n_n_0_1_1_wf
    scatter_S100000x3_S1700000x1_S1700000x3_1_0_0_1 rfl
    gather_S100000x3_S1700000x1_S1700000x3_1_0_n_n_0_1_13 rfl
    Cert.ReferenceIdeal.gather_S100000_S1700000x1_S1700000_n_0_n_n_0_1_1 rfl
    Facts₀.bcast_S100000_S100000x1_0 Facts₀.bcast_S100000x1_S100000x3_0_1
    Facts₀.bcast_S1700000_S1700000x1_0 Cert.ReferenceIdeal.Facts₀.bcast_S1700000x1_S1700000x3_0_1
    _ (fun i => Cert.ReferenceIdeal.NormFacts.zeros3 i)
    (Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)))
    (Cert.ReferenceIdeal.Read.val_main_v14 (F := Ideal) (m ((c : Thread nD τ).loc main_arg1)))
    (Cert.ReferenceIdeal.NormFacts.factor_nonneg_ne_top (m ((c : Thread nD τ).loc main_arg1)))
    (Cert.ReferenceIdeal.Read.val_main_v35 (F := Ideal) (m ((c : Thread nD τ).loc main_arg1)))
    (Cert.ReferenceIdeal.Read.val_main_v41 (F := Ideal) (m ((c : Thread nD τ).loc main_arg1)))
    (Cert.ReferenceIdeal.Read.val_main_v27 (F := Ideal) (m ((c : Thread nD τ).loc main_arg1)))
    (Cert.ReferenceIdeal.NormFacts.lookup_dst (m ((c : Thread nD τ).loc main_arg1)))).trans ?_
  rfl

set_option maxHeartbeats 4000000 in
/-- THE RESULT: what the last boundary holds at the result's buffer is the reference's result of the same arguments. -/
theorem W5_v51 : (W5 m ρ c (Proc.devRef .tc main_v51) : S100000x3.Idx → EReal)
    = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  dsimp only [W5, hostOps2]
  after_results
  rw [W4_v34 m ρ c, W4_v14 m ρ c, W1_v14 m ρ c, W4_v3 m ρ c, W1_v3 m ρ c, W4_v6 m ρ c, W1_v6 m ρ c, W4_arg6 m ρ c,
    W1_arg6 m ρ c]
  exact congrArg (fun t : S100000x3.Idx → EReal => addf (F := Ideal) (φ := FTy.f32) (s := S100000x3) t
    (Cert.ReferenceIdeal.Read.val_main_v84 (F := Ideal) (m ((c : Thread nD τ).loc main_arg6)))) (aggregate2 m c)

end Cert.KernelIdeal.Stages

end
-- ==== Proof.lean ====
/-
  A two-layer graph convolution: the kernel against its reference, on the extended reals.

  The graph has 100000 nodes and 1700000 edges (the 1600000 given ones followed by one self loop per node). With
  d(n) = (max (degree of n) 1)^(-1/2), a layer maps a table X of node features to

      out(n, ·) = ∑_{e ends at n} (X · W)(source of e, ·) · d(source of e) · d(n)  +  bias,

  and the network is layer 2 ∘ relu ∘ layer 1. The reference weights every gathered row by the product of the two
  gathered factors before adding it to its segment. The kernel computes X · W in a region of its own (the second
  one fused with the bias and the relu of the first layer), scales the ROWS of the product by d before gathering,
  and scales the rows of the segment sums by d afterwards. The factor of the destination is the same for every
  edge of a segment and is a nonnegative real, so it moves across the segment's sum (LibSeparableNorm); the sums
  themselves may be anything, and no finiteness of the inputs is used. Changes of number format are the identity on
  the extended reals, and a matrix product accumulated into zeros is the textbook sum.

  The kernel's result is read off its run boundary by boundary (KernelRun, Stages1–3, RegionProducts) as the
  reference's own intermediate arrays of the same arguments (the reference's run and its stages are generated
  modules); the two results are then one term.
-/
import proofs.«126724_j82497731822011_2_alg».proof.Defs
import proofs.«126724_j82497731822011_2_alg».proof.Proof.Gen.Kernel
import proofs.«126724_j82497731822011_2_alg».proof.Proof.Gen.Kernel.Skeleton
import proofs.«126724_j82497731822011_2_alg».proof.Proof.Gen.Kernel.Launch
import proofs.«126724_j82497731822011_2_alg».proof.Proof.Gen.Kernel.Points
import proofs.«126724_j82497731822011_2_alg».proof.Proof.Gen.Kernel.Frame
import proofs.«126724_j82497731822011_2_alg».proof.Proof.Gen.KernelIdeal
import proofs.«126724_j82497731822011_2_alg».proof.Proof.Gen.KernelIdeal.Skeleton
import proofs.«126724_j82497731822011_2_alg».proof.Proof.Gen.KernelIdeal.Launch
import proofs.«126724_j82497731822011_2_alg».proof.Proof.Gen.KernelIdeal.Points
import proofs.«126724_j82497731822011_2_alg».proof.Proof.Gen.KernelIdeal.Frame
import proofs.«126724_j82497731822011_2_alg».proof.Proof.Gen.ReferenceIdeal
import proofs.«126724_j82497731822011_2_alg».proof.Proof.Gen.Pre_finite_inputs
import proofs.«126724_j82497731822011_2_alg».proof.Proof.Gen.ReferenceIdeal.Run
import proofs.«126724_j82497731822011_2_alg».proof.Proof.Gen.ReferenceIdeal.Read
import proofs.«126724_j82497731822011_2_alg».proof.Proof.KernelRun
import proofs.«126724_j82497731822011_2_alg».proof.Proof.Stages3
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run with its result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the reference's result of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.W5_v51 m ρ c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v85_eq, e0, e1, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
